-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S1048576 : Shape := ⟨1, ![1048576]⟩
abbrev S128x128 : Shape := ⟨2, ![128, 128]⟩
abbrev S128x16 : Shape := ⟨2, ![128, 16]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S1048576 : S_.BroadcastsInDim S1048576 (![] : Fin 0 → Fin S1048576.rank)
  reducesTo_S1048576_S_d0 : S1048576.ReducesTo [0] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_

variable [Facts]

def fn_part1 {F : FTy → Type} [FloatOps F] (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  main_v18

def fn {F : FTy → Type} [FloatOps F] (main_arg0 : FVec F S65536x128 .f32) (main_arg1 : IVec S1048576 32) (main_arg2 : IVec S1048576 32) (main_arg3 : FVec F S1048576 .f32) (main_arg4 : FVec F S128x128 .f32) (main_arg5 : FVec F S128x16 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S1048576 .f32 := Host.absf main_arg3
  let main_cst_0 : FVec F S_ .f32 := constant S_ .f32 0x7F800000#32
  let main_v5 : FVec F S1048576 .f32 := broadcastInDim S1048576 ![] bcast_S_S1048576 main_cst_0
  let main_v6 : IVec S1048576 1 := cmpf .olt main_v4 main_v5
  let main_c_1 : IVec S_ 1 := constantI S_ 1 1#1
  let main_v7 : IVec S_ 1 := (fun x v => Host.reduce IntOp.andi x v reducesTo_S1048576_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x16 .f32 := Host.absf main_arg5
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_v13 main_v16
-- ==== Kernel.lean ====
abbrev S65536x128 : Shape := ⟨2, ![65536, 128]⟩
abbrev S1048576 : Shape := ⟨1, ![1048576]⟩
abbrev S128x128 : Shape := ⟨2, ![128, 128]⟩
abbrev S128x16 : Shape := ⟨2, ![128, 16]⟩
abbrev S1048576x1 : Shape := ⟨2, ![1048576, 1]⟩
abbrev S_ : Shape := ⟨0, ![]⟩
abbrev S1048576x128 : Shape := ⟨2, ![1048576, 128]⟩
abbrev S8192x128 : Shape := ⟨2, ![8192, 128]⟩
abbrev S65536x16 : Shape := ⟨2, ![65536, 16]⟩
abbrev S8192x16 : Shape := ⟨2, ![8192, 16]⟩

abbrev nBuf : Space → Nat
  | .hbm => 40
  | .vmem => 10
  | .smem => 0
  | _ => 0

abbrev bufTy : (tb : Table) → Fin (tcTables nBuf tb) → BufTy
  | .hbm, ⟨0, _⟩ => ⟨S65536x128, .f32⟩
  | .hbm, ⟨1, _⟩ => ⟨S1048576, .i32⟩
  | .hbm, ⟨2, _⟩ => ⟨S1048576, .i32⟩
  | .hbm, ⟨3, _⟩ => ⟨S1048576, .f32⟩
  | .hbm, ⟨4, _⟩ => ⟨S128x128, .f32⟩
  | .hbm, ⟨5, _⟩ => ⟨S128x16, .f32⟩
  | .hbm, ⟨6, _⟩ => ⟨S1048576x1, .f32⟩
  | .hbm, ⟨7, _⟩ => ⟨S_, .i32⟩
  | .hbm, ⟨8, _⟩ => ⟨S1048576, .i32⟩
  | .hbm, ⟨9, _⟩ => ⟨S1048576, .i1⟩
  | .hbm, ⟨10, _⟩ => ⟨S_, .i32⟩
  | .hbm, ⟨11, _⟩ => ⟨S1048576, .i32⟩
  | .hbm, ⟨12, _⟩ => ⟨S1048576, .i32⟩
  | .hbm, ⟨13, _⟩ => ⟨S1048576, .i32⟩
  | .hbm, ⟨14, _⟩ => ⟨S1048576x1, .i32⟩
  | .hbm, ⟨15, _⟩ => ⟨S1048576x128, .f32⟩
  | .hbm, ⟨16, _⟩ => ⟨S1048576x128, .f32⟩
  | .hbm, ⟨17, _⟩ => ⟨S1048576x128, .f32⟩
  | .hbm, ⟨18, _⟩ => ⟨S_, .f32⟩
  | .hbm, ⟨19, _⟩ => ⟨S65536x128, .f32⟩
  | .hbm, ⟨20, _⟩ => ⟨S1048576x1, .i32⟩
  | .hbm, ⟨21, _⟩ => ⟨S65536x128, .f32⟩
  | .hbm, ⟨22, _⟩ => ⟨S65536x128, .f32⟩
  | .hbm, ⟨23, _⟩ => ⟨S1048576x1, .f32⟩
  | .hbm, ⟨24, _⟩ => ⟨S_, .i32⟩
  | .hbm, ⟨25, _⟩ => ⟨S1048576, .i32⟩
  | .hbm, ⟨26, _⟩ => ⟨S1048576, .i1⟩
  | .hbm, ⟨27, _⟩ => ⟨S_, .i32⟩
  | .hbm, ⟨28, _⟩ => ⟨S1048576, .i32⟩
  | .hbm, ⟨29, _⟩ => ⟨S1048576, .i32⟩
  | .hbm, ⟨30, _⟩ => ⟨S1048576, .i32⟩
  | .hbm, ⟨31, _⟩ => ⟨S1048576x1, .i32⟩
  | .hbm, ⟨32, _⟩ => ⟨S1048576x128, .f32⟩
  | .hbm, ⟨33, _⟩ => ⟨S1048576x128, .f32⟩
  | .hbm, ⟨34, _⟩ => ⟨S1048576x128, .f32⟩
  | .hbm, ⟨35, _⟩ => ⟨S_, .f32⟩
  | .hbm, ⟨36, _⟩ => ⟨S65536x128, .f32⟩
  | .hbm, ⟨37, _⟩ => ⟨S1048576x1, .i32⟩
  | .hbm, ⟨38, _⟩ => ⟨S65536x128, .f32⟩
  | .hbm, ⟨39, _⟩ => ⟨S65536x16, .f32⟩
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S8192x128, .f32⟩
  | .local _ .vmem, ⟨7, _⟩ => ⟨S128x16, .f32⟩
  | .local _ .vmem, ⟨8, _⟩ => ⟨S8192x16, .f32⟩
  | .local _ .vmem, ⟨9, _⟩ => ⟨S8192x16, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_c_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8192x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S1048576x1_S1048576x128_0_1 : S1048576x1.BroadcastsInDim S1048576x128 (![0, 1] : Fin 2 → Fin S1048576x128.rank)
  bcast_S_S65536x128 : S_.BroadcastsInDim S65536x128 (![] : Fin 0 → Fin S65536x128.rank)
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128x16_S128x16_0_0 : ∀ a, (![0, 0] : Fin 2 → Nat) a + S128x16.size a ≤ S128x16.size a
  h_S128x16 : 0 < S128x16.numel
  inb_S8192x16_S8192x16_0_0 : ∀ a, (![0, 0] : Fin 2 → Nat) a + S8192x16.size a ≤ S8192x16.size a
  h_S8192x16 : 0 < S8192x16.numel
  gather_S65536x128_S1048576x1_S1048576x128_1_0_n_n_0_1_1128_wf : GatherDims.WF S65536x128 S1048576x1 S1048576x128 [1] [0] [] [0] [] 1 ![1, 128]
  scatter_S65536x128_S1048576x1_S1048576x128_1_0_0_1_wf : ScatterDims.WF S65536x128 S1048576x1 S1048576x128 [1] [0] [0] 1
  dot_S8192x128_S128x128_S8192x128_1_0_0_1_n_n_wf : DotDims.WF S8192x128 S128x128 S8192x128 [1] [0] [0] [1] [] []
  dot_S8192x128_S128x16_S8192x16_1_0_0_1_n_n_wf : DotDims.WF S8192x128 S128x16 S8192x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S65536x128.size a
  hwx0_0 : ∀ i : grid0.Coords, EltTy.bits .f32 = 32 ∨ (Rect.block (s := S65536x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S65536x128.size a
  hwx0_2 : ∀ i : grid0.Coords, EltTy.bits .f32 = 32 ∨ (Rect.block (s := S65536x128) S8192x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S65536x128.size a
  hwx1_0 : ∀ i : grid1.Coords, EltTy.bits .f32 = 32 ∨ (Rect.block (s := S65536x128) S8192x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x16.size a ≤ S128x16.size a
  hwx1_1 : ∀ i : grid1.Coords, EltTy.bits .f32 = 32 ∨ (Rect.block (s := S128x16) S128x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x16.size a ≤ S65536x16.size a
  hwx1_2 : ∀ i : grid1.Coords, EltTy.bits .f32 = 32 ∨ (Rect.block (s := S65536x16) S8192x16.size (cc1_transform_2 i) (hinb1_2 i)).WholeWords (EltTy.packing .f32)

variable [Facts₀]

def gather_S65536x128_S1048576x1_S1048576x128_1_0_n_n_0_1_1128 : GatherDims S65536x128 S1048576x1 S1048576x128 where
  offsetDims := [1]
  collapsedSliceDims := [0]
  operandBatchingDims := []
  startIndicesBatchingDims := []
  startIndexMap := [0]
  indexVectorDim := 1
  sliceSizes := ![1, 128]
  wf := gather_S65536x128_S1048576x1_S1048576x128_1_0_n_n_0_1_1128_wf
def scatter_S65536x128_S1048576x1_S1048576x128_1_0_0_1 : ScatterDims S65536x128 S1048576x1 S1048576x128 where
  updateWindowDims := [1]
  insertedWindowDims := [0]
  scatterDimsToOperandDims := [0]
  indexVectorDim := 1
  wf := scatter_S65536x128_S1048576x1_S1048576x128_1_0_0_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x16_S8192x16_1_0_0_1_n_n : DotDims S8192x128 S128x16 S8192x16 where
  lhsContracting := [1]
  rhsContracting := [0]
  lhsNonContracting := [0]
  rhsNonContracting := [1]
  lhsBatch := []
  rhsBatch := []
  wf := dot_S8192x128_S128x16_S8192x16_1_0_0_1_n_n_wf

abbrev win0_0 : Pipeline.Window sig grid0 :=
  Pipeline.Window.ofSpec (Memref.whole main_v12) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v26) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S8192x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S65536x128 : Shape := ⟨2, ![65536, 128]⟩
abbrev S1048576 : Shape := ⟨1, ![1048576]⟩
abbrev S128x128 : Shape := ⟨2, ![128, 128]⟩
abbrev S128x16 : Shape := ⟨2, ![128, 16]⟩
abbrev S1048576x1 : Shape := ⟨2, ![1048576, 1]⟩
abbrev S_ : Shape := ⟨0, ![]⟩
abbrev S1048576x128 : Shape := ⟨2, ![1048576, 128]⟩
abbrev S65536x16 : Shape := ⟨2, ![65536, 16]⟩

abbrev nBuf : Space → Nat
  | .hbm => 43
  | .vmem => 0
  | .smem => 0
  | _ => 0

abbrev bufTy : (tb : Table) → Fin (tcTables nBuf tb) → BufTy
  | .hbm, ⟨0, _⟩ => ⟨S65536x128, .f32⟩
  | .hbm, ⟨1, _⟩ => ⟨S1048576, .i32⟩
  | .hbm, ⟨2, _⟩ => ⟨S1048576, .i32⟩
  | .hbm, ⟨3, _⟩ => ⟨S1048576, .f32⟩
  | .hbm, ⟨4, _⟩ => ⟨S128x128, .f32⟩
  | .hbm, ⟨5, _⟩ => ⟨S128x16, .f32⟩
  | .hbm, ⟨6, _⟩ => ⟨S1048576x1, .f32⟩
  | .hbm, ⟨7, _⟩ => ⟨S_, .i32⟩
  | .hbm, ⟨8, _⟩ => ⟨S1048576, .i32⟩
  | .hbm, ⟨9, _⟩ => ⟨S1048576, .i1⟩
  | .hbm, ⟨10, _⟩ => ⟨S_, .i32⟩
  | .hbm, ⟨11, _⟩ => ⟨S1048576, .i32⟩
  | .hbm, ⟨12, _⟩ => ⟨S1048576, .i32⟩
  | .hbm, ⟨13, _⟩ => ⟨S1048576, .i32⟩
  | .hbm, ⟨14, _⟩ => ⟨S1048576x1, .i32⟩
  | .hbm, ⟨15, _⟩ => ⟨S1048576x128, .f32⟩
  | .hbm, ⟨16, _⟩ => ⟨S1048576x128, .f32⟩
  | .hbm, ⟨17, _⟩ => ⟨S1048576x128, .f32⟩
  | .hbm, ⟨18, _⟩ => ⟨S_, .f32⟩
  | .hbm, ⟨19, _⟩ => ⟨S65536x128, .f32⟩
  | .hbm, ⟨20, _⟩ => ⟨S1048576x1, .i32⟩
  | .hbm, ⟨21, _⟩ => ⟨S65536x128, .f32⟩
  | .hbm, ⟨22, _⟩ => ⟨S65536x128, .f32⟩
  | .hbm, ⟨23, _⟩ => ⟨S_, .f32⟩
  | .hbm, ⟨24, _⟩ => ⟨S65536x128, .f32⟩
  | .hbm, ⟨25, _⟩ => ⟨S65536x128, .f32⟩
  | .hbm, ⟨26, _⟩ => ⟨S1048576x1, .f32⟩
  | .hbm, ⟨27, _⟩ => ⟨S_, .i32⟩
  | .hbm, ⟨28, _⟩ => ⟨S1048576, .i32⟩
  | .hbm, ⟨29, _⟩ => ⟨S1048576, .i1⟩
  | .hbm, ⟨30, _⟩ => ⟨S_, .i32⟩
  | .hbm, ⟨31, _⟩ => ⟨S1048576, .i32⟩
  | .hbm, ⟨32, _⟩ => ⟨S1048576, .i32⟩
  | .hbm, ⟨33, _⟩ => ⟨S1048576, .i32⟩
  | .hbm, ⟨34, _⟩ => ⟨S1048576x1, .i32⟩
  | .hbm, ⟨35, _⟩ => ⟨S1048576x128, .f32⟩
  | .hbm, ⟨36, _⟩ => ⟨S1048576x128, .f32⟩
  | .hbm, ⟨37, _⟩ => ⟨S1048576x128, .f32⟩
  | .hbm, ⟨38, _⟩ => ⟨S_, .f32⟩
  | .hbm, ⟨39, _⟩ => ⟨S65536x128, .f32⟩
  | .hbm, ⟨40, _⟩ => ⟨S1048576x1, .i32⟩
  | .hbm, ⟨41, _⟩ => ⟨S65536x128, .f32⟩
  | .hbm, ⟨42, _⟩ => ⟨S65536x16, .f32⟩
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S1048576_S1048576x1_0 : S1048576.BroadcastsInDim S1048576x1 (![0] : Fin 1 → Fin S1048576x1.rank)
  bcast_S_S1048576 : S_.BroadcastsInDim S1048576 (![] : Fin 0 → Fin S1048576.rank)
  bcast_S1048576x1_S1048576x128_0_1 : S1048576x1.BroadcastsInDim S1048576x128 (![0, 1] : Fin 2 → Fin S1048576x128.rank)
  bcast_S_S65536x128 : S_.BroadcastsInDim S65536x128 (![] : Fin 0 → Fin S65536x128.rank)
  gather_S65536x128_S1048576x1_S1048576x128_1_0_n_n_0_1_1128_wf : GatherDims.WF S65536x128 S1048576x1 S1048576x128 [1] [0] [] [0] [] 1 ![1, 128]
  scatter_S65536x128_S1048576x1_S1048576x128_1_0_0_1_wf : ScatterDims.WF S65536x128 S1048576x1 S1048576x128 [1] [0] [0] 1
  dot_S65536x128_S128x128_S65536x128_1_0_0_1_n_n_wf : DotDims.WF S65536x128 S128x128 S65536x128 [1] [0] [0] [1] [] []
  dot_S65536x128_S128x16_S65536x16_1_0_0_1_n_n_wf : DotDims.WF S65536x128 S128x16 S65536x16 [1] [0] [0] [1] [] []

variable [Facts₀]

def gather_S65536x128_S1048576x1_S1048576x128_1_0_n_n_0_1_1128 : GatherDims S65536x128 S1048576x1 S1048576x128 where
  offsetDims := [1]
  collapsedSliceDims := [0]
  operandBatchingDims := []
  startIndicesBatchingDims := []
  startIndexMap := [0]
  indexVectorDim := 1
  sliceSizes := ![1, 128]
  wf := gather_S65536x128_S1048576x1_S1048576x128_1_0_n_n_0_1_1128_wf
def scatter_S65536x128_S1048576x1_S1048576x128_1_0_0_1 : ScatterDims S65536x128 S1048576x1 S1048576x128 where
  updateWindowDims := [1]
  insertedWindowDims := [0]
  scatterDimsToOperandDims := [0]
  indexVectorDim := 1
  wf := scatter_S65536x128_S1048576x1_S1048576x128_1_0_0_1_wf
def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf
def dot_S65536x128_S128x16_S65536x16_1_0_0_1_n_n : DotDims S65536x128 S128x16 S65536x16 where
  lhsContracting := [1]
  rhsContracting := [0]
  lhsNonContracting := [0]
  rhsNonContracting := [1]
  lhsBatch := []
  rhsBatch := []
  wf := dot_S65536x128_S128x16_S65536x16_1_0_0_1_n_n_wf

class Facts : Prop extends Facts₀ where

variable [Facts]
-- ==== Proof.KernelRun.lean ====
/-
  The idealized kernel's run with its result named.

  The program is four segments: a stretch of host operations (the first sparse aggregation), the first dense layer's
  region, a second stretch (the second aggregation), the second dense layer's region. The buffer contents at the four
  boundaries are a fold from the launch memory: a stretch applies its operations, a region replaces each of its
  arrays by what its write-backs leave. Here the run is stated with the last boundary's contents read off the final
  state at EVERY buffer that is not scoped to a region, so that the result buffer is among them:
  the second region's output array after its eight write-backs.
-/
import proofs.«163929_j9345848836220_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, and in the final state every buffer that is not scoped to a
    region holds the last boundary's contents. -/
theorem run_contents : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run with the result buffer read: the second region's output array after all its write-backs; and the six
    argument arrays as launched. -/
theorem run_result : θ_run defs (onTc (τ := τ) (main (F := F))) ⟨m, fun _ => 0, ρ⟩ (fun r => ∀ c : Dev nD,
      r.2.mem ((c.tc : Thread nD τ).loc main_v27) = (dat1 (V3 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨(h c _ (mem_uc main_v27 (by decide))).trans (W4_arr m ρ c 2),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)
    (run_contents m ρ)

end Cert.KernelIdeal.Run

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.Layers.lean ====
/-
  A dense layer as a function of its two matrices, index by index, on extended reals:
      (a · w)(p, q) = sum over k of a(p, k) * w(k, q),
  and the same followed by the maximum with zero. No program is mentioned here; the extents are arbitrary.
  Row p of the product depends on row p of a only, which is what lets a product computed by blocks of rows be read as
  one product of the whole matrix.
-/
import Idealize.ShloMosaic.PureOps.Ideal
import Idealize.ShloMosaic.Lib.ValueIdx

noncomputable section

namespace Cert.GraphConv

open Idealize.ShloMosaic Idealize.ShloMosaic.ValueIdx
open scoped BigOperators

/-- (a · w)(p, q) = sum over k of a(p, k) * w(k, q). -/
def dense {R K N : ℕ} (a : (⟨2, ![R, K]⟩ : Shape).Idx → EReal) (w : (⟨2, ![K, N]⟩ : Shape).Idx → EReal) :
    (⟨2, ![R, N]⟩ : Shape).Idx → EReal :=
  fun i => ∑ k : Fin K, a (ix2 (i 0) k) * w (ix2 k (i 1))

/-- max((a · w)(p, q), 0), the zero being the float word of +0. -/
def denseRelu {R K N : ℕ} (a : (⟨2, ![R, K]⟩ : Shape).Idx → EReal) (w : (⟨2, ![K, N]⟩ : Shape).Idx → EReal) :
    (⟨2, ![R, N]⟩ : Shape).Idx → EReal :=
  fun i => max (dense a w i) (FloatOps.ofBits (F := Ideal) .f32 0x00000000#32)

end Cert.GraphConv

end
-- ==== Proof.FirstLayer.lean ====
/-
  The first dense layer's region, at any contents V of the buffers when the region is entered.

  The region walks eight blocks of 8192 rows. At block t the body multiplies rows 8192·t … 8192·t + 8191 of the
  aggregated features (its first window) by the whole [128, 128] weight matrix (its second window, the same block at
  every point) into a zero accumulator, takes the maximum with zero, and writes the [8192, 128] result back as rows
  8192·t … of the output array. The casts to the narrow float format are the identity on extended reals. So each block
  written back is the corresponding block of ONE clamped product of the whole feature matrix with the weights, the
  eight blocks tile the output, and the output array ends at that clamped product.
-/
import proofs.«163929_j9345848836220_1_alg».proof.Proof.Gen.KernelIdeal.Frame
import proofs.«163929_j9345848836220_1_alg».proof.Proof.LibMatmulRows
import proofs.«163929_j9345848836220_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.KernelIdeal.FirstLayer

open Cert.KernelIdeal Cert.KernelIdeal.Gen Cert.GraphConv
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem zero_offsets : (![0, 0] : Fin 2 → Nat) = fun _ => 0 := funext fun a => by fin_cases a <;> rfl

/-! ## The matrix unit's dimension record: which coordinates its operand indices take -/

theorem lhs_row (i : S8192x128.Idx) (s : dot_S8192x128_S128x128_S8192x128_1_0_0_1_n_n.contr.Idx) :
    (dot_S8192x128_S128x128_S8192x128_1_0_0_1_n_n.lhsIdx i s 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhs_lane (i : S8192x128.Idx) (s : dot_S8192x128_S128x128_S8192x128_1_0_0_1_n_n.contr.Idx) :
    (dot_S8192x128_S128x128_S8192x128_1_0_0_1_n_n.lhsIdx i s 1).val = (s ⟨0, by decide⟩).val :=
  dot_S8192x128_S128x128_S8192x128_1_0_0_1_n_n.lhsIdx_val_of_single rfl i s
theorem rhs_row (i : S8192x128.Idx) (s : dot_S8192x128_S128x128_S8192x128_1_0_0_1_n_n.contr.Idx) :
    (dot_S8192x128_S128x128_S8192x128_1_0_0_1_n_n.rhsIdx i s 0).val = (s ⟨0, by decide⟩).val :=
  dot_S8192x128_S128x128_S8192x128_1_0_0_1_n_n.rhsIdx_val_of_single rfl i s
theorem rhs_lane (i : S8192x128.Idx) (s : dot_S8192x128_S128x128_S8192x128_1_0_0_1_n_n.contr.Idx) :
    (dot_S8192x128_S128x128_S8192x128_1_0_0_1_n_n.rhsIdx i s 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-! ## What the body stores, at an entry of the block -/

/-- Entry (p, q) of the stored block is row p of the loaded features times column q of the loaded weights, clamped below
    at zero. -/
theorem stored_at (x0 : Vec Ideal S8192x128 .f32) (x1 : Vec Ideal S128x128 .f32) (p : Fin 8192) (q : Fin 128) :
    k0_pay1 (F := Ideal) x0 x1 (ix2 p q)
      = max (∑ k : Fin 128, x0 (ix2 p k) * x1 (ix2 k q)) (FloatOps.ofBits (F := Ideal) .f32 0x00000000#32) := by
  unfold k0_pay1
  show max (matmul dot_S8192x128_S128x128_S8192x128_1_0_0_1_n_n none _ _ _ (ix2 p q)) (FloatOps.ofBits (F := Ideal) .f32 0x00000000#32) = _
  refine congrArg (fun z => max z (FloatOps.ofBits (F := Ideal) .f32 0x00000000#32)) ?_
  refine (Cert.LibMatmulRows.matmul_rows (R := 8192) (K := 128) (N := 128) dot_S8192x128_S128x128_S8192x128_1_0_0_1_n_n rfl rfl
    lhs_row lhs_lane rhs_row rhs_lane _ _ p q).trans ?_
  refine Finset.sum_congr rfl fun k _ => ?_
  simp only [truncf, Ideal.truncf_def, shapeCast_self]

/-! ## The windows' blocks as rows of their arrays -/

/-- The block index of each window at point t: the features' and the output's block is t along the rows, the
    weights' block is the whole matrix. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The features' block at point t is rows 8192·t … of the aggregated feature array. -/
theorem acts_block (c : Dev nD) (t : Fin cfg0.N) (y : S8192x128.Idx) (i : S65536x128.Idx)
    (h0 : (i 0).val = 8192 * t.val + (y 0).val) (h1 : (i 1).val = (y 1).val) :
    (iblk0 V c 0 t : Vec Ideal S8192x128 .f32) y = (V c main_v12 : S65536x128.Idx → EReal) i := by
  obtain ⟨e0, e1, -, -, -, -⟩ := block_index t
  unfold iblk0
  rw [View.read_apply]
  show V c main_v12 _ = V c main_v12 _
  congr 1
  funext a
  apply Fin.ext
  match a with
  | ⟨0, _⟩ => show win0_0.index t (0 : Fin 2) * 8192 + 1 * (y 0).val = (i 0).val; rw [e0, h0]; omega
  | ⟨1, _⟩ => show win0_0.index t (1 : Fin 2) * 128 + 1 * (y 1).val = (i 1).val; rw [e1, h1]; omega

/-- The weights' block at every point is the whole weight matrix. -/
theorem weights_block (c : Dev nD) (t : Fin cfg0.N) (y : S128x128.Idx) (i : S128x128.Idx)
    (h0 : (i 0).val = (y 0).val) (h1 : (i 1).val = (y 1).val) :
    (iblk0 V c 1 t : Vec Ideal S128x128 .f32) y = (V c main_arg4 : S128x128.Idx → EReal) i := by
  obtain ⟨-, -, e0, e1, -, -⟩ := block_index t
  unfold iblk0
  rw [View.read_apply]
  show V c main_arg4 _ = V c main_arg4 _
  congr 1
  funext a
  apply Fin.ext
  match a with
  | ⟨0, _⟩ => show win0_1.index t (0 : Fin 2) * 128 + 1 * (y 0).val = (i 0).val; rw [e0, h0]; omega
  | ⟨1, _⟩ => show win0_1.index t (1 : Fin 2) * 128 + 1 * (y 1).val = (i 1).val; rw [e1, h1]; omega

/-- Where entry y of the output's block at point t sits in the output array. -/
theorem out_place (t : Fin cfg0.N) (y : S8192x128.Idx) :
    ((((cfg0.win 2).blk t).view.emb y) 0).val = 8192 * t.val + (y 0).val
    ∧ ((((cfg0.win 2).blk t).view.emb y) 1).val = (y 1).val := by
  obtain ⟨-, -, -, -, e0, e1⟩ := block_index t
  constructor
  · show win0_2.index t (0 : Fin 2) * 8192 + 1 * (y 0).val = _; rw [e0]; omega
  · show win0_2.index t (1 : Fin 2) * 128 + 1 * (y 1).val = _; rw [e1]; omega

/-! ## What a point writes back, the cover, the array -/

/-- What point t writes back is block t of the clamped product of the whole feature matrix with the weights. -/
theorem written_back (c : Dev nD) (t : Fin cfg0.N) :
    (dat0 V c).flushed 2 t = ((cfg0.win 2).blk t).view.read (Elt Ideal)
      (denseRelu (R := 65536) (K := 128) (N := 128) (V c main_v12) (V c main_arg4)) := by
  show (cfg0.win 2).cut (grid0.coords t) ((dat0 V c).after 2 t) = _
  rw [after0_2]
  unfold out0_2
  rw [View.canon_unit_zero zero_offsets]
  simp only [View.ld_unit_zero (S := S8192x128) zero_offsets, View.ld_unit_zero (S := S128x128) zero_offsets]
  funext y
  obtain ⟨p, q, rfl⟩ : ∃ (p : Fin 8192) (q : Fin 128), y = ix2 p q := ⟨y 0, y 1, eq_ix2 y⟩
  obtain ⟨o0, o1⟩ := out_place t (ix2 p q)
  show k0_pay1 (F := Ideal) (iblk0 V c 0 t) (iblk0 V c 1 t) (ix2 p q)
    = denseRelu (R := 65536) (K := 128) (N := 128) (V c main_v12) (V c main_arg4) (((cfg0.win 2).blk t).view.emb (ix2 p q))
  refine (stored_at (iblk0 V c 0 t) (iblk0 V c 1 t) p q).trans ?_
  unfold denseRelu dense
  refine congrArg (fun z => max z (FloatOps.ofBits (F := Ideal) .f32 0x00000000#32)) ?_
  refine Finset.sum_congr rfl fun k _ => ?_
  rw [acts_block V c t (ix2 p k) (ix2 ((((cfg0.win 2).blk t).view.emb (ix2 p q)) 0) k) o0 rfl,
    weights_block V c t (ix2 k q) (ix2 k ((((cfg0.win 2).blk t).view.emb (ix2 p q)) 1)) rfl o1]

/-- An index of the output array is in point t's block iff each coordinate is in the block's range on its axis. -/
theorem in_block (t : Fin cfg0.N) (i : S65536x128.Idx) :
    i ∈ ((cfg0.win 2).blk t).view.set ↔ ∀ a : Fin 2, win0_2.index t a * S8192x128.size a ≤ (i a).val ∧ (i a).val < win0_2.index t a * S8192x128.size a + S8192x128.size a := by
  show i ∈ ((View.whole main_v13).slice (win0_2.rect t)).set ↔ _
  rw [View.set_slice_whole, Rect.mem_set_unit]
  exact Iff.rfl

/-- Row r of the output is in block r / 8192: the eight blocks tile the array. -/
theorem tiled (i : S65536x128.Idx) :
    ∃ t : Fin cfg0.N, (cfg0.win 2).flush t = true ∧ i ∈ ((cfg0.win 2).blk t).view.set := by
  have hN : cfg0.N = 8 := N_0
  have hi0 : (i 0).val < 65536 := (i 0).isLt
  have hi1 : (i 1).val < 128 := (i 1).isLt
  refine ⟨⟨(i 0).val / 8192, by rw [hN]; omega⟩, flush0_2 _, ?_⟩
  rw [in_block]
  obtain ⟨-, -, -, -, e0, e1⟩ := block_index ⟨(i 0).val / 8192, by rw [hN]; omega⟩
  intro a
  match a with
  | ⟨0, _⟩ =>
    show win0_2.index _ (0 : Fin 2) * 8192 ≤ (i 0).val ∧ (i 0).val < win0_2.index _ (0 : Fin 2) * 8192 + 8192
    rw [e0]; show (i 0).val / 8192 * 8192 ≤ (i 0).val ∧ (i 0).val < (i 0).val / 8192 * 8192 + 8192; omega
  | ⟨1, _⟩ =>
    show win0_2.index _ (1 : Fin 2) * 16 ≤ (i 1).val ∧ (i 1).val < win0_2.index _ (1 : Fin 2) * 128 + 128
    rw [e1]; omega

/-- The output array after the region: the clamped product of the whole feature matrix with the weights. -/
theorem output (c : Dev nD) :
    (dat0 V c).arrAt 2 cfg0.N = denseRelu (R := 65536) (K := 128) (N := 128) (V c main_v12) (V c main_arg4) :=
  (dat0 V c).arrAt_eq_of_cover 2 _ (fun t _ => written_back V c t) tiled

end Cert.KernelIdeal.FirstLayer

end
-- ==== Proof.SecondLayer.lean ====
/-
  The second dense layer's region, at any contents V of the buffers when the region is entered.

  The region walks eight blocks of 8192 rows. At block t the body multiplies rows 8192·t … 8192·t + 8191 of the
  activations (its first window) by the whole [128, 16] weight matrix (its second window, the same block at every
  point) into a zero accumulator, and writes the [8192, 16] product back as rows 8192·t … of the output array.
  The casts to the narrow float format are the identity on extended reals. So each block written back is the
  corresponding block of ONE product of the whole activation matrix with the weights, the eight blocks tile the
  output, and the output array ends at that product.
-/
import proofs.«163929_j9345848836220_1_alg».proof.Proof.Gen.KernelIdeal.Frame
import proofs.«163929_j9345848836220_1_alg».proof.Proof.LibMatmulRows
import proofs.«163929_j9345848836220_1_alg».proof.Proof.Layers
import Idealize.ShloMosaic.Lib.Pipeline.Value
import Idealize.ShloMosaic.Lib.ValueIdx
import Idealize.ShloMosaic.PureOps.Ideal.Laws

set_option maxRecDepth 16384

noncomputable section

namespace Cert.KernelIdeal.SecondLayer

open Cert.KernelIdeal Cert.KernelIdeal.Gen Cert.GraphConv
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem zero_offsets : (![0, 0] : Fin 2 → Nat) = fun _ => 0 := funext fun a => by fin_cases a <;> rfl

/-! ## The matrix unit's dimension record: which coordinates its operand indices take -/

theorem lhs_row (i : S8192x16.Idx) (s : dot_S8192x128_S128x16_S8192x16_1_0_0_1_n_n.contr.Idx) :
    (dot_S8192x128_S128x16_S8192x16_1_0_0_1_n_n.lhsIdx i s 0).val = (i 0).val := by
  unfold DotDims.lhsIdx
  rw [dif_neg (show ¬(0 : Fin S8192x128.rank) ∈ dot_S8192x128_S128x16_S8192x16_1_0_0_1_n_n.lhsBatch by decide), dif_pos (show (0 : Fin S8192x128.rank) ∈ dot_S8192x128_S128x16_S8192x16_1_0_0_1_n_n.lhsNonContracting by decide)]
  rfl
theorem lhs_lane (i : S8192x16.Idx) (s : dot_S8192x128_S128x16_S8192x16_1_0_0_1_n_n.contr.Idx) :
    (dot_S8192x128_S128x16_S8192x16_1_0_0_1_n_n.lhsIdx i s 1).val = (s ⟨0, by decide⟩).val :=
  dot_S8192x128_S128x16_S8192x16_1_0_0_1_n_n.lhsIdx_val_of_single rfl i s
theorem rhs_row (i : S8192x16.Idx) (s : dot_S8192x128_S128x16_S8192x16_1_0_0_1_n_n.contr.Idx) :
    (dot_S8192x128_S128x16_S8192x16_1_0_0_1_n_n.rhsIdx i s 0).val = (s ⟨0, by decide⟩).val :=
  dot_S8192x128_S128x16_S8192x16_1_0_0_1_n_n.rhsIdx_val_of_single rfl i s
theorem rhs_lane (i : S8192x16.Idx) (s : dot_S8192x128_S128x16_S8192x16_1_0_0_1_n_n.contr.Idx) :
    (dot_S8192x128_S128x16_S8192x16_1_0_0_1_n_n.rhsIdx i s 1).val = (i 1).val := by
  unfold DotDims.rhsIdx
  rw [dif_neg (show ¬(1 : Fin S128x16.rank) ∈ dot_S8192x128_S128x16_S8192x16_1_0_0_1_n_n.rhsBatch by decide), dif_pos (show (1 : Fin S128x16.rank) ∈ dot_S8192x128_S128x16_S8192x16_1_0_0_1_n_n.rhsNonContracting by decide)]
  rfl

/-! ## What the body stores, at an entry of the block -/

/-- Entry (p, q) of the stored block is row p of the loaded activations times column q of the loaded weights. -/
theorem stored_at (x0 : Vec Ideal S8192x128 .f32) (x1 : Vec Ideal S128x16 .f32) (p : Fin 8192) (q : Fin 16) :
    k1_pay1 (F := Ideal) x0 x1 (ix2 p q) = ∑ k : Fin 128, x0 (ix2 p k) * x1 (ix2 k q) := by
  unfold k1_pay1
  refine (Cert.LibMatmulRows.matmul_rows (R := 8192) (K := 128) (N := 16) dot_S8192x128_S128x16_S8192x16_1_0_0_1_n_n rfl rfl
    lhs_row lhs_lane rhs_row rhs_lane _ _ p q).trans ?_
  refine Finset.sum_congr rfl fun k _ => ?_
  simp only [truncf, Ideal.truncf_def, shapeCast_self]

/-! ## The windows' blocks as rows of their arrays -/

/-- The block index of each window at point t: the activations' and the output's block is t along the rows, the
    weights' block is the whole matrix. -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The activations' block at point t is rows 8192·t … of the activation array. -/
theorem acts_block (c : Dev nD) (t : Fin cfg1.N) (y : S8192x128.Idx) (i : S65536x128.Idx)
    (h0 : (i 0).val = 8192 * t.val + (y 0).val) (h1 : (i 1).val = (y 1).val) :
    (iblk1 V c 0 t : Vec Ideal S8192x128 .f32) y = (V c main_v26 : S65536x128.Idx → EReal) i := by
  obtain ⟨e0, e1, -, -, -, -⟩ := block_index t
  unfold iblk1
  rw [View.read_apply]
  show V c main_v26 _ = V c main_v26 _
  congr 1
  funext a
  apply Fin.ext
  match a with
  | ⟨0, _⟩ => show win1_0.index t (0 : Fin 2) * 8192 + 1 * (y 0).val = (i 0).val; rw [e0, h0]; omega
  | ⟨1, _⟩ => show win1_0.index t (1 : Fin 2) * 128 + 1 * (y 1).val = (i 1).val; rw [e1, h1]; omega

/-- The weights' block at every point is the whole weight matrix. -/
theorem weights_block (c : Dev nD) (t : Fin cfg1.N) (y : S128x16.Idx) (i : S128x16.Idx)
    (h0 : (i 0).val = (y 0).val) (h1 : (i 1).val = (y 1).val) :
    (iblk1 V c 1 t : Vec Ideal S128x16 .f32) y = (V c main_arg5 : S128x16.Idx → EReal) i := by
  obtain ⟨-, -, e0, e1, -, -⟩ := block_index t
  unfold iblk1
  rw [View.read_apply]
  show V c main_arg5 _ = V c main_arg5 _
  congr 1
  funext a
  apply Fin.ext
  match a with
  | ⟨0, _⟩ => show win1_1.index t (0 : Fin 2) * 128 + 1 * (y 0).val = (i 0).val; rw [e0, h0]; omega
  | ⟨1, _⟩ => show win1_1.index t (1 : Fin 2) * 16 + 1 * (y 1).val = (i 1).val; rw [e1, h1]; omega

/-- Where entry y of the output's block at point t sits in the output array. -/
theorem out_place (t : Fin cfg1.N) (y : S8192x16.Idx) :
    ((((cfg1.win 2).blk t).view.emb y) 0).val = 8192 * t.val + (y 0).val
    ∧ ((((cfg1.win 2).blk t).view.emb y) 1).val = (y 1).val := by
  obtain ⟨-, -, -, -, e0, e1⟩ := block_index t
  constructor
  · show win1_2.index t (0 : Fin 2) * 8192 + 1 * (y 0).val = _; rw [e0]; omega
  · show win1_2.index t (1 : Fin 2) * 16 + 1 * (y 1).val = _; rw [e1]; omega

/-! ## What a point writes back, the cover, the array -/

/-- What point t writes back is block t of the product of the whole activation matrix with the weights. -/
theorem written_back (c : Dev nD) (t : Fin cfg1.N) :
    (dat1 V c).flushed 2 t = ((cfg1.win 2).blk t).view.read (Elt Ideal)
      (dense (R := 65536) (K := 128) (N := 16) (V c main_v26) (V c main_arg5)) := by
  show (cfg1.win 2).cut (grid1.coords t) ((dat1 V c).after 2 t) = _
  rw [after1_2]
  unfold out1_2
  rw [View.canon_unit_zero zero_offsets]
  simp only [View.ld_unit_zero (S := S8192x128) zero_offsets, View.ld_unit_zero (S := S128x16) zero_offsets]
  funext y
  obtain ⟨p, q, rfl⟩ : ∃ (p : Fin 8192) (q : Fin 16), y = ix2 p q := ⟨y 0, y 1, eq_ix2 y⟩
  obtain ⟨o0, o1⟩ := out_place t (ix2 p q)
  show k1_pay1 (F := Ideal) (iblk1 V c 0 t) (iblk1 V c 1 t) (ix2 p q)
    = dense (R := 65536) (K := 128) (N := 16) (V c main_v26) (V c main_arg5) (((cfg1.win 2).blk t).view.emb (ix2 p q))
  refine (stored_at (iblk1 V c 0 t) (iblk1 V c 1 t) p q).trans ?_
  unfold dense
  refine Finset.sum_congr rfl fun k _ => ?_
  rw [acts_block V c t (ix2 p k) (ix2 ((((cfg1.win 2).blk t).view.emb (ix2 p q)) 0) k) o0 rfl,
    weights_block V c t (ix2 k q) (ix2 k ((((cfg1.win 2).blk t).view.emb (ix2 p q)) 1)) rfl o1]

/-- An index of the output array is in point t's block iff each coordinate is in the block's range on its axis. -/
theorem in_block (t : Fin cfg1.N) (i : S65536x16.Idx) :
    i ∈ ((cfg1.win 2).blk t).view.set ↔ ∀ a : Fin 2, win1_2.index t a * S8192x16.size a ≤ (i a).val ∧ (i a).val < win1_2.index t a * S8192x16.size a + S8192x16.size a := by
  show i ∈ ((View.whole main_v27).slice (win1_2.rect t)).set ↔ _
  rw [View.set_slice_whole, Rect.mem_set_unit]
  exact Iff.rfl

/-- Row r of the output is in block r / 8192: the eight blocks tile the array. -/
theorem tiled (i : S65536x16.Idx) :
    ∃ t : Fin cfg1.N, (cfg1.win 2).flush t = true ∧ i ∈ ((cfg1.win 2).blk t).view.set := by
  have hN : cfg1.N = 8 := N_1
  have hi0 : (i 0).val < 65536 := (i 0).isLt
  have hi1 : (i 1).val < 16 := (i 1).isLt
  refine ⟨⟨(i 0).val / 8192, by rw [hN]; omega⟩, flush1_2 _, ?_⟩
  rw [in_block]
  obtain ⟨-, -, -, -, e0, e1⟩ := block_index ⟨(i 0).val / 8192, by rw [hN]; omega⟩
  intro a
  match a with
  | ⟨0, _⟩ =>
    show win1_2.index _ (0 : Fin 2) * 8192 ≤ (i 0).val ∧ (i 0).val < win1_2.index _ (0 : Fin 2) * 8192 + 8192
    rw [e0]; show (i 0).val / 8192 * 8192 ≤ (i 0).val ∧ (i 0).val < (i 0).val / 8192 * 8192 + 8192; omega
  | ⟨1, _⟩ =>
    show win1_2.index _ (1 : Fin 2) * 16 ≤ (i 1).val ∧ (i 1).val < win1_2.index _ (1 : Fin 2) * 16 + 16
    rw [e1]; omega

/-- The output array after the region: the product of the whole activation matrix with the weights. -/
theorem output (c : Dev nD) :
    (dat1 V c).arrAt 2 cfg1.N = dense (R := 65536) (K := 128) (N := 16) (V c main_v26) (V c main_arg5) :=
  (dat1 V c).arrAt_eq_of_cover 2 _ (fun t _ => written_back V c t) tiled

end Cert.KernelIdeal.SecondLayer

end
-- ==== Proof.Aggregate.lean ====
/-
  The sparse aggregation both programs apply before each dense layer, as ONE function of the feature matrix x, the edge
  lists u (rows) and v (columns) and the edge weights w:
      (A x)(r, ·) = sum over the edges e with u(e) = r of w(e) * x(v(e), ·),
  spelt as the host spells it — a negative column index is shifted by the row count, the rows x(v(e), ·) are gathered,
  scaled by the weight broadcast along the lanes, and scatter-added from zero at the rows u(e).
  The kernel and the reference spell it with the same operations on the same operands, so nothing of it is ever opened:
  it is applied to equal arguments on both sides.
-/
import proofs.«163929_j9345848836220_1_alg».proof.Defs
import proofs.«163929_j9345848836220_1_alg».proof.Proof.Gen.KernelIdeal

noncomputable section

namespace Cert.GraphConv

open Idealize.ShloMosaic Cert.KernelIdeal Cert.KernelIdeal.Gen

/-- The aggregation A x of the features x over the weighted edge list (u, v, w). -/
def aggregate (x : (⟨S65536x128, .f32⟩ : BufTy).Contents (Elt Ideal)) (u v : (⟨S1048576, .i32⟩ : BufTy).Contents (Elt Ideal))
    (w : (⟨S1048576, .f32⟩ : BufTy).Contents (Elt Ideal)) : (⟨S65536x128, .f32⟩ : BufTy).Contents (Elt Ideal) :=
  Host.scatterAdd scatter_S65536x128_S1048576x1_S1048576x128_1_0_0_1
    (broadcastInDim S65536x128 ![] bcast_S_S65536x128 (constant (F := Ideal) S_ .f32 0x00000000#32))
    (broadcastInDim S1048576x1 ![0] bcast_S1048576_S1048576x1_0 u)
    (mulf (broadcastInDim S1048576x128 ![0, 1] bcast_S1048576x1_S1048576x128_0_1 (broadcastInDim S1048576x1 ![0] bcast_S1048576_S1048576x1_0 w))
      (Host.gather gather_S65536x128_S1048576x1_S1048576x128_1_0_n_n_0_1_1128 x
        (broadcastInDim S1048576x1 ![0] bcast_S1048576_S1048576x1_0
          (select (cmpi .slt v (broadcastInDim S1048576 ![] bcast_S_S1048576 (constantI S_ 32 0#32)))
            (addi v (broadcastInDim S1048576 ![] bcast_S_S1048576 (constantI S_ 32 65536#32))) v))))

end Cert.GraphConv

end
-- ==== Proof.Spec.lean ====
/-
  The function both programs compute, of the features x, the edge lists u and v, the edge weights w and the two
  weight matrices:   out = dense (A (max (dense (A x) W1) 0)) W2,   A the sparse aggregation over the edges.
-/
import proofs.«163929_j9345848836220_1_alg».proof.Proof.Layers
import proofs.«163929_j9345848836220_1_alg».proof.Proof.Aggregate

noncomputable section

namespace Cert.GraphConv

open Idealize.ShloMosaic Cert.KernelIdeal

/-- Two graph-convolution layers: aggregate, multiply and clamp; aggregate, multiply. -/
def twoLayers (x : (⟨S65536x128, .f32⟩ : BufTy).Contents (Elt Ideal)) (u v : (⟨S1048576, .i32⟩ : BufTy).Contents (Elt Ideal))
    (w : (⟨S1048576, .f32⟩ : BufTy).Contents (Elt Ideal)) (W1 : (⟨S128x128, .f32⟩ : BufTy).Contents (Elt Ideal))
    (W2 : (⟨S128x16, .f32⟩ : BufTy).Contents (Elt Ideal)) : (⟨S65536x16, .f32⟩ : BufTy).Contents (Elt Ideal) :=
  dense (R := 65536) (K := 128) (N := 16)
    (aggregate (denseRelu (R := 65536) (K := 128) (N := 128) (aggregate x u v w) W1) u v w) W2

end Cert.GraphConv

end
-- ==== Proof.KernelValue.lean ====
/-
  The idealized kernel's result as a function of its arguments.

  The buffer contents at the boundaries of the program's four segments are read in order. The first stretch of host
  operations leaves the aggregated features; the first region turns them into the clamped product with the first
  weights (read off its blocks in the module of the first layer); the second stretch aggregates those hidden
  activations, reading the edge lists and weights that nothing has written since the launch; the second region leaves
  the product with the second weights. Chained: the two-layer function of the arguments.
-/
import proofs.«163929_j9345848836220_1_alg».proof.Proof.KernelRun
import proofs.«163929_j9345848836220_1_alg».proof.Proof.FirstLayer
import proofs.«163929_j9345848836220_1_alg».proof.Proof.SecondLayer
import proofs.«163929_j9345848836220_1_alg».proof.Proof.Spec
import Idealize.ShloMosaic.Lib.StableHlo.Run

set_option maxRecDepth 16384

noncomputable section

namespace Cert.KernelIdeal.TwoLayers

open Cert.KernelIdeal Cert.KernelIdeal.Gen Cert.GraphConv
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The first stretch: the aggregated features; the arguments it does not write -/

theorem features_aggregated (c : Dev nD) :
    V1 m ρ c main_v12 = aggregate (m ((c : Thread nD τ).loc main_arg0)) (m ((c : Thread nD τ).loc main_arg1))
      (m ((c : Thread nD τ).loc main_arg2)) (m ((c : Thread nD τ).loc main_arg3)) := by
  show StableHlo.after hostOps0 (W0 m ρ c) (Proc.devRef .tc main_v12) = _
  after_results
  rfl

theorem first_weights (c : Dev nD) : V1 m ρ c main_arg4 = m ((c : Thread nD τ).loc main_arg4) := by
  show StableHlo.after hostOps0 (W0 m ρ c) (Proc.devRef .tc main_arg4) = _
  after_results

theorem rows_kept (c : Dev nD) : W1 m ρ c (Proc.devRef .tc main_arg1) = m ((c : Thread nD τ).loc main_arg1) := by
  show StableHlo.after hostOps0 (W0 m ρ c) (Proc.devRef .tc main_arg1) = _
  after_results
theorem cols_kept (c : Dev nD) : W1 m ρ c (Proc.devRef .tc main_arg2) = m ((c : Thread nD τ).loc main_arg2) := by
  show StableHlo.after hostOps0 (W0 m ρ c) (Proc.devRef .tc main_arg2) = _
  after_results
theorem weights_kept (c : Dev nD) : W1 m ρ c (Proc.devRef .tc main_arg3) = m ((c : Thread nD τ).loc main_arg3) := by
  show StableHlo.after hostOps0 (W0 m ρ c) (Proc.devRef .tc main_arg3) = _
  after_results
theorem second_weights_kept (c : Dev nD) : W1 m ρ c (Proc.devRef .tc main_arg5) = m ((c : Thread nD τ).loc main_arg5) := by
  show StableHlo.after hostOps0 (W0 m ρ c) (Proc.devRef .tc main_arg5) = _
  after_results

/-! ## The first region: the hidden activations -/

theorem hidden (c : Dev nD) :
    W2 m ρ c (Proc.devRef .tc main_v13)
      = denseRelu (R := 65536) (K := 128) (N := 128)
          (aggregate (m ((c : Thread nD τ).loc main_arg0)) (m ((c : Thread nD τ).loc main_arg1))
            (m ((c : Thread nD τ).loc main_arg2)) (m ((c : Thread nD τ).loc main_arg3)))
          (m ((c : Thread nD τ).loc main_arg4)) := by
  refine (W2_arr m ρ c 2).trans ?_
  rw [FirstLayer.output (V1 m ρ) c, features_aggregated m ρ c, first_weights m ρ c]

/-! ## The second stretch: the aggregated hidden activations -/

theorem hidden_aggregated (c : Dev nD) :
    V3 m ρ c main_v26 = aggregate (W2 m ρ c (Proc.devRef .tc main_v13)) (W2 m ρ c (Proc.devRef .tc main_arg1))
      (W2 m ρ c (Proc.devRef .tc main_arg2)) (W2 m ρ c (Proc.devRef .tc main_arg3)) := by
  show StableHlo.after hostOps1 (W2 m ρ c) (Proc.devRef .tc main_v26) = _
  after_results
  rfl

theorem second_weights (c : Dev nD) : V3 m ρ c main_arg5 = m ((c : Thread nD τ).loc main_arg5) := by
  have h : V3 m ρ c main_arg5 = W2 m ρ c (Proc.devRef .tc main_arg5) := by
    show StableHlo.after hostOps1 (W2 m ρ c) (Proc.devRef .tc main_arg5) = _
    after_results
  rw [h, W2_of_ne m ρ c main_arg5 (by decide), second_weights_kept m ρ c]

/-! ## The second region: the result -/

/-- The result array after the run is the two-layer function of the launch contents of the six arguments. -/
theorem result (c : Dev nD) :
    (dat1 (V3 m ρ) c).arrAt 2 cfg1.N
      = twoLayers (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  rw [SecondLayer.output (V3 m ρ) c, hidden_aggregated m ρ c, second_weights m ρ c, hidden m ρ c,
    W2_of_ne m ρ c main_arg1 (by decide), W2_of_ne m ρ c main_arg2 (by decide), W2_of_ne m ρ c main_arg3 (by decide),
    rows_kept m ρ c, cols_kept m ρ c, weights_kept m ρ c]
  rfl

/-- The run of the idealized kernel: it terminates with the result buffer at the two-layer function of the arguments,
    and the arguments as launched. -/
theorem run : θ_run defs (onTc (τ := τ) (main (F := Ideal))) ⟨m, fun _ => 0, ρ⟩ (fun r => ∀ c : Dev nD,
      r.2.mem ((c.tc : Thread nD τ).loc main_v27)
        = twoLayers (m ((c : Thread nD τ).loc main_arg0)) (m ((c : Thread nD τ).loc main_arg1))
            (m ((c : Thread nD τ).loc main_arg2)) (m ((c : Thread nD τ).loc main_arg3))
            (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (result m ρ c), (h c).2⟩) (Run.run_result (F := Ideal) m ρ)

end Cert.KernelIdeal.TwoLayers

end
-- ==== Proof.RefSide.lean ====
/-
  The reference's result as a function of its arguments: aggregate, multiply by the first weights and take the maximum
  with zero, aggregate again, multiply by the second weights. Each matrix product is read at an index as the sum over
  the contracted axis; the two aggregations are the shared function, applied, never opened.
-/
import proofs.«163929_j9345848836220_1_alg».proof.Defs
import proofs.«163929_j9345848836220_1_alg».proof.Proof.Gen.ReferenceIdeal.Run
import proofs.«163929_j9345848836220_1_alg».proof.Proof.Gen.ReferenceIdeal.Read
import proofs.«163929_j9345848836220_1_alg».proof.Proof.Layers
import proofs.«163929_j9345848836220_1_alg».proof.Proof.Aggregate

noncomputable section

namespace Cert.ReferenceIdeal.Layers

open Cert.ReferenceIdeal Cert.ReferenceIdeal.Gen Cert.ReferenceIdeal.Read Cert.GraphConv
open Idealize.ShloMosaic Idealize.ShloMosaic.ValueIdx
open scoped BigOperators

variable (x0 : (⟨S65536x128, .f32⟩ : BufTy).Contents (Elt Ideal)) (x1 x2 : (⟨S1048576, .i32⟩ : BufTy).Contents (Elt Ideal))
  (x3 : (⟨S1048576, .f32⟩ : BufTy).Contents (Elt Ideal)) (x4 : (⟨S128x128, .f32⟩ : BufTy).Contents (Elt Ideal))
  (x5 : (⟨S128x16, .f32⟩ : BufTy).Contents (Elt Ideal))

/-- The first aggregation is the shared function of the features. -/
theorem first_aggregation : val_main_v12 (F := Ideal) x0 x1 x2 x3 = aggregate x0 x1 x2 x3 := rfl

/-- The hidden activations: the first dense layer of the aggregated features, clamped below at zero. -/
theorem hidden : val_main_v14 (F := Ideal) x0 x1 x2 x3 x4
    = denseRelu (R := 65536) (K := 128) (N := 128) (aggregate x0 x1 x2 x3) x4 := by
  funext i
  have el : ∀ k : Fin 128, lidx_main_v13 i k = ix2 (i 0) k := fun k => funext fun a => Fin.ext (by
    match a with
    | ⟨0, _⟩ => rfl
    | ⟨1, _⟩ => rfl)
  have er : ∀ k : Fin 128, ridx_main_v13 i k = ix2 k (i 1) := fun k => funext fun a => Fin.ext (by
    match a with
    | ⟨0, _⟩ => rfl
    | ⟨1, _⟩ => rfl)
  rw [val_main_v14_apply, val_main_v13_apply, val_main_call0_v0_apply, val_main_call0_cst_apply, first_aggregation]
  simp only [el, er]
  rfl

/-- The second aggregation is the shared function of the hidden activations. -/
theorem second_aggregation : val_main_v27 (F := Ideal) x0 x1 x2 x3 x4
    = aggregate (val_main_v14 (F := Ideal) x0 x1 x2 x3 x4) x1 x2 x3 := rfl

/-- The reference's result: the second dense layer of the aggregated hidden activations. -/
theorem result : val_main_v28 (F := Ideal) x0 x1 x2 x3 x4 x5
    = dense (R := 65536) (K := 128) (N := 16)
        (aggregate (denseRelu (R := 65536) (K := 128) (N := 128) (aggregate x0 x1 x2 x3) x4) x1 x2 x3) x5 := by
  funext i
  have el : ∀ k : Fin 128, lidx_main_v28 i k = ix2 (i 0) k := fun k => funext fun a => Fin.ext (by
    match a with
    | ⟨0, _⟩ => rfl
    | ⟨1, _⟩ => rfl)
  have er : ∀ k : Fin 128, ridx_main_v28 i k = ix2 k (i 1) := fun k => funext fun a => Fin.ext (by
    match a with
    | ⟨0, _⟩ => rfl
    | ⟨1, _⟩ => rfl)
  rw [val_main_v28_apply, second_aggregation, hidden]
  simp only [el, er]
  rfl

end Cert.ReferenceIdeal.Layers

end
-- ==== Proof.lean ====
/-
  A two-layer graph convolution, out = (A · max(A · x · W1, 0)) · W2 with A the weighted adjacency given as an edge
  list, computed two ways: by a program whose two dense layers are row-blocked matrix-unit products in a narrow float
  format (the sparse aggregation A · left to the host), and by the plain array program. On extended reals the narrow
  casts are the identity, a product into a zero accumulator is the sum over the contracted axis, and a product taken
  eight row blocks at a time is the product of the whole matrix, because a row of the product depends on that row of
  the left factor only. The aggregation is the same function of the same operands on both sides and is never opened.
  So both programs end at one function of the six arguments (Spec.lean's twoLayers), with no condition on the inputs:
  only sums are reindexed, and no law that fails at an infinity is used.

  The five claims: the three programs run to the end without fault and leave their arguments as launched; the
  idealized kernel is the kernel's own text read on extended reals (nothing was rewritten, so there is nothing to
  preserve); and the idealized kernel and the idealized reference end with equal results.
-/
import proofs.«163929_j9345848836220_1_alg».proof.Defs
import proofs.«163929_j9345848836220_1_alg».proof.Proof.Gen.Kernel
import proofs.«163929_j9345848836220_1_alg».proof.Proof.Gen.Kernel.Frame
import proofs.«163929_j9345848836220_1_alg».proof.Proof.Gen.KernelIdeal
import proofs.«163929_j9345848836220_1_alg».proof.Proof.Gen.KernelIdeal.Frame
import proofs.«163929_j9345848836220_1_alg».proof.Proof.Gen.ReferenceIdeal
import proofs.«163929_j9345848836220_1_alg».proof.Proof.Gen.ReferenceIdeal.Run
import proofs.«163929_j9345848836220_1_alg».proof.Proof.Gen.ReferenceIdeal.Read
import proofs.«163929_j9345848836220_1_alg».proof.Proof.Gen.Pre_finite_inputs
import proofs.«163929_j9345848836220_1_alg».proof.Proof.KernelValue
import proofs.«163929_j9345848836220_1_alg».proof.Proof.RefSide
import Idealize.ShloMosaic.Adequacy
import Idealize.ShloMosaic.Init

noncomputable section

namespace Cert.Proof

open Idealize.ShloMosaic Idealize.ShloMosaic.TcCoe Idealize.SL.Sem

/-- The kernel as printed runs to the end and leaves its arguments as launched. -/
theorem frame_kernel : Cert.frame_Kernel := fun m ρ _ => Cert.Kernel.Gen.frame m ρ

/-- So does its reading on extended reals. -/
theorem frame_ideal : Cert.frame_KernelIdeal := fun m ρ _ => Cert.KernelIdeal.Gen.frame m ρ

/-- The reference is a line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to extended reals. -/
theorem preserves : Cert.preserves_Kernel_KernelIdeal := trivial

/-- Both idealized programs end at the two-layer function of arguments that agree. -/
theorem algebraic : Cert.algebraic_KernelIdeal_ReferenceIdeal := by
  intro m ρ m' ρ' _ hagree
  refine ⟨fun c => Cert.GraphConv.twoLayers
      (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3))
      (m ((c : Thread Cert.KernelIdeal.nD Cert.KernelIdeal.τ).loc Cert.KernelIdeal.main_arg4))
      (m ((c : Thread Cert.KernelIdeal.nD Cert.KernelIdeal.τ).loc Cert.KernelIdeal.main_arg5)),
    Cert.KernelIdeal.TwoLayers.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5]
  exact (Cert.ReferenceIdeal.Read.val_main_v28_eq (F := Ideal) _ _ _ _ _ _).trans
    (Cert.ReferenceIdeal.Layers.result _ _ _ _ _ _)

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
